-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1048576 : Shape := ⟨1, ![1048576]⟩
abbrev S192x128 : Shape := ⟨2, ![192, 128]⟩
abbrev S128 : Shape := ⟨1, ![128]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S65536x64 .f32) (main_arg1 : IVec S1048576 32) (main_arg2 : IVec S1048576 32) (main_arg3 : FVec F S1048576 .f32) (main_arg4 : FVec F S192x128 .f32) (main_arg5 : FVec F S128 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1048576 .f32 := Host.absf main_arg3
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S65536x64 : Shape := ⟨2, ![65536, 64]⟩
abbrev S1048576 : Shape := ⟨1, ![1048576]⟩
abbrev S192x128 : Shape := ⟨2, ![192, 128]⟩
abbrev S128 : Shape := ⟨1, ![128]⟩
abbrev S1048576x1 : Shape := ⟨2, ![1048576, 1]⟩
abbrev S_ : Shape := ⟨0, ![]⟩
abbrev S1048576x64 : Shape := ⟨2, ![1048576, 64]⟩
abbrev S1x128 : Shape := ⟨2, ![1, 128]⟩
abbrev S65536x128 : Shape := ⟨2, ![65536, 128]⟩
abbrev S4096x64 : Shape := ⟨2, ![4096, 64]⟩
abbrev S4096x128 : Shape := ⟨2, ![4096, 128]⟩
abbrev S64x128 : Shape := ⟨2, ![64, 128]⟩

abbrev nBuf : Space → Nat
  | .hbm => 40
  | .vmem => 10
  | .smem => 0
  | _ => 0

abbrev bufTy : (tb : Table) → Fin (tcTables nBuf tb) → BufTy
  | .hbm, ⟨0, _⟩ => ⟨S65536x64, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S192x128, .f32⟩
  | .hbm, ⟨5, _⟩ => ⟨S128, .f32⟩
  | .hbm, ⟨6, _⟩ => ⟨S1048576x1, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S_, .f32⟩
  | .hbm, ⟨19, _⟩ => ⟨S65536x64, .f32⟩
  | .hbm, ⟨20, _⟩ => ⟨S1048576x1, .i32⟩
  | .hbm, ⟨21, _⟩ => ⟨S65536x64, .f32⟩
  | .hbm, ⟨22, _⟩ => ⟨S1048576x1, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x64, .f32⟩
  | .hbm, ⟨32, _⟩ => ⟨S1048576x64, .f32⟩
  | .hbm, ⟨33, _⟩ => ⟨S1048576x64, .f32⟩
  | .hbm, ⟨34, _⟩ => ⟨S_, .f32⟩
  | .hbm, ⟨35, _⟩ => ⟨S65536x64, .f32⟩
  | .hbm, ⟨36, _⟩ => ⟨S1048576x1, .i32⟩
  | .hbm, ⟨37, _⟩ => ⟨S65536x64, .f32⟩
  | .hbm, ⟨38, _⟩ => ⟨S1x128, .f32⟩
  | .hbm, ⟨39, _⟩ => ⟨S65536x128, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S192x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  shapeCasts_S128_S1x128 : S128.ShapeCasts S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  slices_S192x128_o0_0_S64x128 : S192x128.Slices ![0, 0] S64x128
  slices_S192x128_o64_0_S64x128 : S192x128.Slices ![64, 0] S64x128
  slices_S192x128_o128_0_S64x128 : S192x128.Slices ![128, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S65536x64.size a
  hwx0_1 : ∀ i : grid0.Coords, EltTy.bits .f32 = 32 ∨ (Rect.block (s := S65536x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S65536x128.size a
  hwx0_5 : ∀ i : grid0.Coords, EltTy.bits .f32 = 32 ∨ (Rect.block (s := S65536x128) S4096x128.size (cc0_transform_5 i) (hinb0_5 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x64 : Shape := ⟨2, ![65536, 64]⟩
abbrev S1048576 : Shape := ⟨1, ![1048576]⟩
abbrev S192x128 : Shape := ⟨2, ![192, 128]⟩
abbrev S128 : Shape := ⟨1, ![128]⟩
abbrev S1048576x1 : Shape := ⟨2, ![1048576, 1]⟩
abbrev S_ : Shape := ⟨0, ![]⟩
abbrev S1048576x64 : Shape := ⟨2, ![1048576, 64]⟩
abbrev S65536x192 : Shape := ⟨2, ![65536, 192]⟩
abbrev S65536x128 : Shape := ⟨2, ![65536, 128]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S192x128, .f32⟩
  | .hbm, ⟨5, _⟩ => ⟨S128, .f32⟩
  | .hbm, ⟨6, _⟩ => ⟨S1048576x1, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S_, .f32⟩
  | .hbm, ⟨19, _⟩ => ⟨S65536x64, .f32⟩
  | .hbm, ⟨20, _⟩ => ⟨S1048576x1, .i32⟩
  | .hbm, ⟨21, _⟩ => ⟨S65536x64, .f32⟩
  | .hbm, ⟨22, _⟩ => ⟨S1048576x1, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x64, .f32⟩
  | .hbm, ⟨32, _⟩ => ⟨S1048576x64, .f32⟩
  | .hbm, ⟨33, _⟩ => ⟨S1048576x64, .f32⟩
  | .hbm, ⟨34, _⟩ => ⟨S_, .f32⟩
  | .hbm, ⟨35, _⟩ => ⟨S65536x64, .f32⟩
  | .hbm, ⟨36, _⟩ => ⟨S1048576x1, .i32⟩
  | .hbm, ⟨37, _⟩ => ⟨S65536x64, .f32⟩
  | .hbm, ⟨38, _⟩ => ⟨S_, .f32⟩
  | .hbm, ⟨39, _⟩ => ⟨S65536x64, .f32⟩
  | .hbm, ⟨40, _⟩ => ⟨S65536x64, .f32⟩
  | .hbm, ⟨41, _⟩ => ⟨S65536x64, .f32⟩
  | .hbm, ⟨42, _⟩ => ⟨S65536x192, .f32⟩
  | .hbm, ⟨43, _⟩ => ⟨S65536x128, .f32⟩
  | .hbm, ⟨44, _⟩ => ⟨S1x128, .f32⟩
  | .hbm, ⟨45, _⟩ => ⟨S65536x128, .f32⟩
  | .hbm, ⟨46, _⟩ => ⟨S65536x128, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  concatenates_S65536x64_S65536x64_S65536x64_S65536x192_d1 : Shape.Concatenates [S65536x64, S65536x64, S65536x64] S65536x192 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x192_S192x128_S65536x128_1_0_0_1_n_n_wf : DotDims.WF S65536x192 S192x128 S65536x128 [1] [0] [0] [1] [] []

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x192_S192x128_S65536x128_1_0_0_1_n_n : DotDims S65536x192 S192x128 S65536x128 where
  lhsContracting := [1]
  rhsContracting := [0]
  lhsNonContracting := [0]
  rhsNonContracting := [1]
  lhsBatch := []
  rhsBatch := []
  wf := dot_S65536x192_S192x128_S65536x128_1_0_0_1_n_n_wf

class Facts : Prop extends Facts₀ where

variable [Facts]
-- ==== Proof.ChebSpec.lean ====
/-
  The mathematics of the fused Chebyshev layer, stated once and away from both programs.

  With X the node features [N, 64], T1 = L X and S = L T1 the two sparse products (whatever arrays they are: this file
  never looks inside them), W the weight matrix [192, 128] cut into three row bands of 64, and b the bias [128], entry
  (p, q) of the layer's output is

      (  sum_k X[p,k] W[k,q]  +  sum_k T1[p,k] W[64+k,q]  )  +  sum_k (2 S[p,k] - X[p,k]) W[128+k,q]   +  b[q].

  One side forms it exactly so: three products of 64 terms, added left to right, then the bias. The other side lays
  X, T1 and 2 S - X side by side as one [N, 192] matrix and contracts all 192 columns against W at once. The two agree
  because a sum over 192 consecutive indices is the sum of its three consecutive runs of 64 (`sum_three_bands`): a fact of any
  additive commutative monoid, so it holds on the extended reals with the infinities included and no finiteness is asked.
-/
import Idealize.ShloMosaic.PureOps.Ideal
import Idealize.ShloMosaic.Lib.ValueIdx

noncomputable section

open scoped BigOperators

namespace Cert.Cheb

open Idealize.ShloMosaic Idealize.ShloMosaic.ValueIdx

/-- Position `k` of the first band of 64 among 192 rows. -/
abbrev lo (k : Fin 64) : Fin 192 := ⟨k.val, by omega⟩
/-- Position `k` of the second band: row `64 + k`. -/
abbrev mid (k : Fin 64) : Fin 192 := ⟨64 + k.val, by omega⟩
/-- Position `k` of the third band: row `128 + k`. -/
abbrev hi (k : Fin 64) : Fin 192 := ⟨128 + k.val, by omega⟩

/-- A sum over 192 consecutive indices is the sum over its three consecutive bands of 64, in any additive commutative
    monoid (only re-association of a finite sum is used). -/
theorem sum_three_bands {M : Type*} [AddCommMonoid M] (f : Fin 192 → M) :
    ∑ k : Fin 192, f k = (∑ k : Fin 64, f (lo k) + ∑ k : Fin 64, f (mid k)) + ∑ k : Fin 64, f (hi k) := by
  have h1 : ∑ k : Fin (128 + 64), f k = ∑ k : Fin 128, f (Fin.castAdd 64 k) + ∑ k : Fin 64, f (Fin.natAdd 128 k) :=
    Fin.sum_univ_add (a := 128) (b := 64) f
  have h2 : ∑ k : Fin (64 + 64), f (Fin.castAdd 64 k)
      = ∑ k : Fin 64, f (Fin.castAdd 64 (Fin.castAdd 64 k)) + ∑ k : Fin 64, f (Fin.castAdd 64 (Fin.natAdd 64 k)) :=
    Fin.sum_univ_add (a := 64) (b := 64) fun k : Fin (64 + 64) => f (Fin.castAdd 64 k)
  exact h1.trans (congrArg (· + ∑ k : Fin 64, f (Fin.natAdd 128 k)) h2)

/-- The literal 2.0 both programs multiply by, as the extended real its word denotes (never evaluated: the same word
    stands on both sides). -/
abbrev two : EReal := Ideal.ofBits .f32 0x40000000#32

/-- The three banded products at row `p`, column `q`, for node arrays of any number `R` of rows (the whole arrays have
    65536, one grid point's blocks 4096): X against W's first band, T1 against the second, 2 S - X against the third,
    added left to right. -/
def bands {R : Nat} (X T1 S : (⟨2, ![R, 64]⟩ : Shape).Idx → EReal) (W : (⟨2, ![192, 128]⟩ : Shape).Idx → EReal)
    (p : Fin R) (q : Fin 128) : EReal :=
  (∑ k : Fin 64, X (ix2 p k) * W (ix2 (lo k) q) + ∑ k : Fin 64, T1 (ix2 p k) * W (ix2 (mid k) q))
    + ∑ k : Fin 64, (two * S (ix2 p k) - X (ix2 p k)) * W (ix2 (hi k) q)

/-- The layer's output array: the banded products plus the bias of the column. -/
def layer (X T1 S : (⟨2, ![65536, 64]⟩ : Shape).Idx → EReal) (W : (⟨2, ![192, 128]⟩ : Shape).Idx → EReal)
    (b : (⟨1, ![128]⟩ : Shape).Idx → EReal) : (⟨2, ![65536, 128]⟩ : Shape).Idx → EReal := fun i =>
  bands X T1 S W (⟨(i 0).val, (i 0).isLt⟩ : Fin 65536) (⟨(i 1).val, (i 1).isLt⟩ : Fin 128)
    + b (ix1 (⟨(i 1).val, (i 1).isLt⟩ : Fin 128))

/-- Rows `base .. base + R'` of the banded products are the banded products of those rows: if three blocks hold rows
    `base + p` of three arrays, entry (p, q) over the blocks is entry (base + p, q) over the arrays. -/
theorem bands_rows {R R' : Nat} (X T1 S : (⟨2, ![R, 64]⟩ : Shape).Idx → EReal)
    (X' T1' S' : (⟨2, ![R', 64]⟩ : Shape).Idx → EReal) (W : (⟨2, ![192, 128]⟩ : Shape).Idx → EReal)
    (p' : Fin R') (p : Fin R) (q : Fin 128)
    (hX : ∀ k : Fin 64, X' (ix2 p' k) = X (ix2 p k)) (hT : ∀ k : Fin 64, T1' (ix2 p' k) = T1 (ix2 p k))
    (hS : ∀ k : Fin 64, S' (ix2 p' k) = S (ix2 p k)) :
    bands X' T1' S' W p' q = bands X T1 S W p q := by
  unfold bands
  simp only [hX, hT, hS]

end Cert.Cheb

end
-- ==== Proof.BodyValue.lean ====
/-
  What one grid point's body stores, read at an index of its [4096, 128] output block.

  The body loads the point's blocks of X, T1 = L X and S = L T1 (4096 rows of 64 each), the whole weight matrix W
  [192, 128] and the bias as a one-row matrix [1, 128]. It forms 2 S - X, multiplies X by rows 0..63 of W, T1 by
  rows 64..127 and 2 S - X by rows 128..191 — each product accumulated into a zero matrix, each operand first narrowed
  to a shorter float format, which changes nothing on exact values —, adds the three products left to right and adds the bias
  row copied down the 4096 rows. At (p, q) each product is a sum over the 64 shared positions of a row entry times a
  weight entry (`band_product`: the contraction's index is its one coordinate, the band of W is W shifted by the
  band's first row), so the stored entry is `Cheb.bands` of the blocks at (p, q) plus the bias row's entry q.
-/
import proofs.«165190_j63230508531930_2_alg».proof.Proof.Gen.KernelIdeal.Skeleton
import proofs.«165190_j63230508531930_2_alg».proof.Proof.ChebSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.Cheb

/-- The block product's dimension numbers: rows by 64 shared positions, times 64 shared positions by columns. -/
abbrev blockDot : DotDims S4096x64 S64x128 S4096x128 := dot_S4096x64_S64x128_S4096x128_1_0_0_1_n_n

/-- The left operand's row is the output's row; -/
theorem lhs_row (i : S4096x128.Idx) (r : blockDot.contr.Idx) : (blockDot.lhsIdx i r 0).val = (i 0).val := by
  unfold DotDims.lhsIdx
  rw [dif_neg (show ¬(0 : Fin S4096x64.rank) ∈ blockDot.lhsBatch by decide),
    dif_pos (show (0 : Fin S4096x64.rank) ∈ blockDot.lhsNonContracting by decide)]
  rfl
/-- its column is the shared position; -/
theorem lhs_col (i : S4096x128.Idx) (r : blockDot.contr.Idx) : (blockDot.lhsIdx i r 1).val = (r ⟨0, by decide⟩).val :=
  blockDot.lhsIdx_val_of_single rfl i r
/-- the right operand's row is the shared position; -/
theorem rhs_row (i : S4096x128.Idx) (r : blockDot.contr.Idx) : (blockDot.rhsIdx i r 0).val = (r ⟨0, by decide⟩).val :=
  blockDot.rhsIdx_val_of_single rfl i r
/-- and its column is the output's column. -/
theorem rhs_col (i : S4096x128.Idx) (r : blockDot.contr.Idx) : (blockDot.rhsIdx i r 1).val = (i 1).val := by
  unfold DotDims.rhsIdx
  rw [dif_neg (show ¬(1 : Fin S64x128.rank) ∈ blockDot.rhsBatch by decide),
    dif_pos (show (1 : Fin S64x128.rank) ∈ blockDot.rhsNonContracting by decide)]
  rfl

/-- ONE BAND'S PRODUCT at (p, q): a block `A` [4096, 64] times rows `off .. off + 64` of `Wb` [192, 128], accumulated
    into zero, is the sum over the 64 shared positions `k` of `A[p, k] · Wb[off + k, q]`. -/
theorem band_product (A : FVec Ideal S4096x64 .bf16) (Wb : FVec Ideal S192x128 .bf16) (off : Nat)
    (hs : S192x128.Slices ![off, 0] S64x128) (pos : Fin 64 → Fin 192) (hpos : ∀ k, (pos k).val = off + k.val)
    (p : Fin 4096) (q : Fin 128) :
    matmul blockDot none A (extractStridedSlice S64x128 ![off, 0] Wb hs) (constant (F := Ideal) S4096x128 .f32 0x00000000#32) (ix2 p q)
      = ∑ k : Fin 64, A (ix2 p k) * Wb (ix2 (pos k) q) := by
  refine (Ideal.matmul_constant_zero_apply blockDot none A (extractStridedSlice S64x128 ![off, 0] Wb hs) (ix2 p q)).trans ?_
  rw [← Equiv.sum_comp (contrEquiv1 blockDot 64 rfl rfl).symm]
  refine Finset.sum_congr rfl fun k _ => ?_
  have hk := contrEquiv1_symm_val blockDot 64 rfl rfl k
  have el : blockDot.lhsIdx (ix2 p q) ((contrEquiv1 blockDot 64 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 64 rfl rfl).symm k) = ix2 k q := funext fun a => Fin.ext (by
    match a with
    | ⟨0, _⟩ => exact (rhs_row _ _).trans hk
    | ⟨1, _⟩ => exact rhs_col _ _)
  rw [el, er]
  refine congrArg (A (ix2 p k) * ·) ?_
  exact extractStridedSlice_apply ![off, 0] Wb hs (ix2 k q) (ix2 (pos k) q) (fun a => match a with
    | ⟨0, _⟩ => hpos k
    | ⟨1, _⟩ => by show q.val = 0 + q.val; omega)

/-- WHAT THE BODY STORES at (p, q): the three banded products of the loaded blocks plus the bias row's entry. -/
theorem stored_apply (x0 x1 x2 : Vec Ideal S4096x64 .f32) (x3 : Vec Ideal S192x128 .f32) (x4 : Vec Ideal S1x128 .f32)
    (p : Fin 4096) (q : Fin 128) :
    k0_pay1 x0 x1 x2 x3 x4 (ix2 p q) = bands x0 x1 x2 x3 p q + x4 (ix2 (0 : Fin 1) q) := by
  unfold k0_pay1
  simp only [shapeCast_self, addf_apply]
  refine (congrArg₂ (· + ·) (congrArg₂ (· + ·) (congrArg₂ (· + ·)
    (band_product (truncf .bf16 x0 bitsLt_bf16_f32) (truncf .bf16 x3 bitsLt_bf16_f32) 0 slices_S192x128_o0_0_S64x128 lo
      (fun k => by show k.val = 0 + k.val; omega) p q)
    (band_product (truncf .bf16 x1 bitsLt_bf16_f32) (truncf .bf16 x3 bitsLt_bf16_f32) 64 slices_S192x128_o64_0_S64x128 mid
      (fun k => rfl) p q))
    (band_product (truncf .bf16 (subf (mulf (broadcast S4096x64 (FloatOps.ofBits (F := Ideal) .f32 0x40000000#32)) x2) x0) bitsLt_bf16_f32)
      (truncf .bf16 x3 bitsLt_bf16_f32) 128 slices_S192x128_o128_0_S64x128 hi (fun k => rfl) p q))
    (broadcastTo_1b_ab_apply x4 broadcasts_S1x128_S4096x128 p q)).trans ?_
  rfl

end Cert.KernelIdeal.BodyValue

end
-- ==== Proof.HostStage.lean ====
/-
  What the kernel's region finds in the three window arrays that the host computed before it.

  Before the one fused kernel the program runs, on the host, the same sparse product twice — gather the rows of a node
  array named by the edges' column indices, scale each gathered row by its edge's value, add the scaled rows into the rows
  named by the edges' row indices — giving T1 = L X and then S = L T1; and it views the bias [128] as a one-row matrix
  [1, 128]. These are word for word the operations the reference begins with, so the two arrays the region finds are
  the reference's own first and second sparse products of the same arguments (`first_product`, `second_product`): the
  sparse product is never opened, on either side. The bias row read at (0, q) is the bias at q (`bias_row_apply`).
-/
import proofs.«165190_j63230508531930_2_alg».proof.Proof.Gen.KernelIdeal.Frame
import proofs.«165190_j63230508531930_2_alg».proof.Proof.Gen.ReferenceIdeal.Read
import Idealize.ShloMosaic.Lib.StableHlo.Run
import Idealize.ShloMosaic.Lib.Pipeline.Value

noncomputable section

namespace Cert.KernelIdeal.HostStage

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- The second window's array, T1 = L X, is the reference's first sparse product of the same arguments. -/
theorem first_product (c : Dev nD) :
    (V m c main_v12 : S65536x64.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp
  rfl

set_option maxRecDepth 8192 in
set_option maxHeartbeats 2000000 in
/-- The third window's array, S = L (L X), is the reference's second sparse product of the same arguments. -/
theorem second_product (c : Dev nD) :
    (V m c main_v25 : S65536x64.Idx → EReal)
      = Cert.ReferenceIdeal.Read.val_main_v25 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results_simp
  rfl

set_option maxRecDepth 8192 in
set_option maxHeartbeats 2000000 in
/-- The fifth window's array is the bias viewed as a one-row matrix. -/
theorem bias_row (c : Dev nD) :
    (V m c main_v26 : S1x128.Idx → EReal) = shapeCast S1x128 (m ((c : Thread nD τ).loc main_arg5)) shapeCasts_S128_S1x128 := by
  dsimp only [Gen.V, Gen.hostOps0]
  after_results_simp
  rfl

/-- A vector [128] viewed as a one-row matrix reads, at (0, q), the vector at q. -/
theorem bias_row_apply (x5 : S128.Idx → EReal) (y : S1x128.Idx) (z : S128.Idx) (hz : (z 0).val = (y 1).val) :
    shapeCast S1x128 x5 shapeCasts_S128_S1x128 y = x5 z :=
  (shapeCast_addUnit_apply ![128] x5 shapeCasts_S128_S1x128 y).trans
    (congrArg x5 (funext fun a => match a with | ⟨0, _⟩ => Fin.ext hz.symm))

end Cert.KernelIdeal.HostStage

end
-- ==== Proof.ArrayValue.lean ====
/-
  From one grid point's block to the whole output array.

  The grid has 16 points; point t works on rows 4096 t .. 4096 t + 4095. Its three node blocks are those rows of X,
  T1 and S (all 64 columns), its weight block is all of W, its bias block is the whole bias row, and it writes back
  rows 4096 t .. 4096 t + 4095 of the output (all 128 columns) — `block_index`, decided over the 16 points. So what
  point t writes back is block t of ONE function of the whole arrays, the layer's formula `Cheb.layer`
  (`written_back`: the body's stored entry (p, q) is the layer's entry (4096 t + p, q), by `Cheb.bands_rows`). Row r
  of the output lies in the block of point r / 4096, so the 16 blocks cover the array (`covered`) and the array ends
  holding the layer's formula of X, the two sparse products as the region finds them, W and b (`final`); those two
  arrays are the reference's own sparse products of the arguments (HostStage), which gives the kernel's run its closed
  post (`run`).
-/
import proofs.«165190_j63230508531930_2_alg».proof.Proof.Gen.KernelIdeal.Value
import proofs.«165190_j63230508531930_2_alg».proof.Proof.BodyValue
import proofs.«165190_j63230508531930_2_alg».proof.Proof.HostStage
import proofs.«165190_j63230508531930_2_alg».proof.Proof.ChebSpec
import Idealize.ShloMosaic.Lib.Pipeline.Value
import Idealize.ShloMosaic.Lib.ValueIdx

noncomputable section

namespace Cert.KernelIdeal.ArrayValue

open Cert.KernelIdeal Cert.KernelIdeal.Gen
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## One point's stored entry against the whole arrays -/

/-- If a point's three node blocks hold rows `base + p` of three arrays, its weight block is the weight array and its
    bias block reads the bias, then the entry the body stores at `j` is the layer's entry at the array index `i`
    that lies `base` rows further down. -/
theorem point_value (x0 x1 x2 : Vec Ideal S4096x64 .f32) (x3 : Vec Ideal S192x128 .f32) (x4 : Vec Ideal S1x128 .f32)
    (A0 A1 A2 : S65536x64.Idx → EReal) (A3 : S192x128.Idx → EReal) (b : S128.Idx → EReal) (base : Nat)
    (h0 : ∀ (y : S4096x64.Idx) (z : S65536x64.Idx), (z 0).val = base + (y 0).val → (z 1).val = (y 1).val → x0 y = A0 z)
    (h1 : ∀ (y : S4096x64.Idx) (z : S65536x64.Idx), (z 0).val = base + (y 0).val → (z 1).val = (y 1).val → x1 y = A1 z)
    (h2 : ∀ (y : S4096x64.Idx) (z : S65536x64.Idx), (z 0).val = base + (y 0).val → (z 1).val = (y 1).val → x2 y = A2 z)
    (h3 : ∀ y : S192x128.Idx, x3 y = A3 y)
    (h4 : ∀ (y : S1x128.Idx) (z : S128.Idx), (z 0).val = (y 1).val → x4 y = b z)
    (j : S4096x128.Idx) (i : S65536x128.Idx) (hi0 : (i 0).val = base + (j 0).val) (hi1 : (i 1).val = (j 1).val) :
    k0_pay1 x0 x1 x2 x3 x4 j = Cheb.layer A0 A1 A2 A3 b i := by
  obtain ⟨p, q, rfl⟩ : ∃ (p : Fin 4096) (q : Fin 128), j = ix2 p q := ⟨j 0, j 1, eq_ix2 j⟩
  refine (BodyValue.stored_apply x0 x1 x2 x3 x4 p q).trans ?_
  obtain rfl : x3 = A3 := funext h3
  obtain rfl : q = ⟨(i 1).val, (i 1).isLt⟩ := Fin.ext hi1.symm
  show _ = bands A0 A1 A2 x3 (⟨(i 0).val, (i 0).isLt⟩ : Fin 65536) (⟨(i 1).val, (i 1).isLt⟩ : Fin 128)
    + b (ix1 (⟨(i 1).val, (i 1).isLt⟩ : Fin 128))
  refine congrArg₂ (· + ·) ?_ ?_
  · exact bands_rows A0 A1 A2 x0 x1 x2 x3 p ⟨(i 0).val, (i 0).isLt⟩ ⟨(i 1).val, (i 1).isLt⟩
      (fun k => h0 (ix2 p k) (ix2 (⟨(i 0).val, (i 0).isLt⟩ : Fin 65536) k) hi0 rfl)
      (fun k => h1 (ix2 p k) (ix2 (⟨(i 0).val, (i 0).isLt⟩ : Fin 65536) k) hi0 rfl)
      (fun k => h2 (ix2 p k) (ix2 (⟨(i 0).val, (i 0).isLt⟩ : Fin 65536) k) hi0 rfl)
  · exact h4 (ix2 (0 : Fin 1) ⟨(i 1).val, (i 1).isLt⟩) (ix1 (⟨(i 1).val, (i 1).isLt⟩ : Fin 128)) rfl

/-! ## The windows' blocks at a point -/

/-- The printed index maps, decided over the 16 points: the three node windows and the output move together down
    the rows, one block per point; the weight and bias windows stay on their one block. -/
theorem block_index : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t`, read off ANY array of its shape, is rows `4096 t ..` of that array: a fact about
    positions only, whatever the array holds. -/
theorem rows_of_window0 (t : Fin cfg0.N) (A : S65536x64.Idx → EReal) (y : S4096x64.Idx) (z : S65536x64.Idx)
    (hz0 : (z 0).val = win0_5.index t (0 : Fin 2) * 4096 + (y 0).val) (hz1 : (z 1).val = (y 1).val) :
    ((cfg0.win 0).blk t).view.read (Elt Ideal) A y = A z := by
  obtain ⟨e00, e01, -⟩ := block_index t
  show A (((cfg0.win 0).blk t).view.emb y) = A z
  refine congrArg A (funext fun a => Fin.ext ?_)
  match a with
  | ⟨0, _⟩ => show win0_0.index t (0 : Fin 2) * 4096 + 1 * (y 0).val = (z 0).val; omega
  | ⟨1, _⟩ => show win0_0.index t (1 : Fin 2) * 64 + 1 * (y 1).val = (z 1).val; omega

/-- Window 1's block likewise. -/
theorem rows_of_window1 (t : Fin cfg0.N) (A : S65536x64.Idx → EReal) (y : S4096x64.Idx) (z : S65536x64.Idx)
    (hz0 : (z 0).val = win0_5.index t (0 : Fin 2) * 4096 + (y 0).val) (hz1 : (z 1).val = (y 1).val) :
    ((cfg0.win 1).blk t).view.read (Elt Ideal) A y = A z := by
  obtain ⟨-, -, e10, e11, -⟩ := block_index t
  show A (((cfg0.win 1).blk t).view.emb y) = A z
  refine congrArg A (funext fun a => Fin.ext ?_)
  match a with
  | ⟨0, _⟩ => show win0_1.index t (0 : Fin 2) * 4096 + 1 * (y 0).val = (z 0).val; omega
  | ⟨1, _⟩ => show win0_1.index t (1 : Fin 2) * 64 + 1 * (y 1).val = (z 1).val; omega

/-- Window 2's block likewise. -/
theorem rows_of_window2 (t : Fin cfg0.N) (A : S65536x64.Idx → EReal) (y : S4096x64.Idx) (z : S65536x64.Idx)
    (hz0 : (z 0).val = win0_5.index t (0 : Fin 2) * 4096 + (y 0).val) (hz1 : (z 1).val = (y 1).val) :
    ((cfg0.win 2).blk t).view.read (Elt Ideal) A y = A z := by
  obtain ⟨-, -, -, -, e20, e21, -⟩ := block_index t
  show A (((cfg0.win 2).blk t).view.emb y) = A z
  refine congrArg A (funext fun a => Fin.ext ?_)
  match a with
  | ⟨0, _⟩ => show win0_2.index t (0 : Fin 2) * 4096 + 1 * (y 0).val = (z 0).val; omega
  | ⟨1, _⟩ => show win0_2.index t (1 : Fin 2) * 64 + 1 * (y 1).val = (z 1).val; omega

/-- Window 3's block at every point, read off any array of its shape, is the whole array. -/
theorem all_of_window3 (t : Fin cfg0.N) (A : S192x128.Idx → EReal) (y : S192x128.Idx) :
    ((cfg0.win 3).blk t).view.read (Elt Ideal) A y = A y := by
  obtain ⟨-, -, -, -, -, -, e30, e31, -⟩ := block_index t
  show A (((cfg0.win 3).blk t).view.emb y) = A y
  refine congrArg A (funext fun a => Fin.ext ?_)
  match a with
  | ⟨0, _⟩ => show win0_3.index t (0 : Fin 2) * 192 + 1 * (y 0).val = (y 0).val; omega
  | ⟨1, _⟩ => show win0_3.index t (1 : Fin 2) * 128 + 1 * (y 1).val = (y 1).val; omega

/-- Window 4's block at every point, read off any array of its shape, is the whole array. -/
theorem all_of_window4 (t : Fin cfg0.N) (A : S1x128.Idx → EReal) (y : S1x128.Idx) :
    ((cfg0.win 4).blk t).view.read (Elt Ideal) A y = A y := by
  obtain ⟨-, -, -, -, -, -, -, -, e40, e41, -⟩ := block_index t
  show A (((cfg0.win 4).blk t).view.emb y) = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Point `t`'s block of X is rows `4096 t ..` of X as the region finds it. -/
theorem read_x (c : Dev nD) (t : Fin cfg0.N) (y : S4096x64.Idx) (z : S65536x64.Idx)
    (hz0 : (z 0).val = win0_5.index t (0 : Fin 2) * 4096 + (y 0).val) (hz1 : (z 1).val = (y 1).val) :
    iblk m c 0 t y = V m c main_arg0 z := by
  unfold iblk
  exact rows_of_window0 t (V m c main_arg0) y z hz0 hz1

/-- Point `t`'s block of T1 is rows `4096 t ..` of the first sparse product as the region finds it. -/
theorem read_t1 (c : Dev nD) (t : Fin cfg0.N) (y : S4096x64.Idx) (z : S65536x64.Idx)
    (hz0 : (z 0).val = win0_5.index t (0 : Fin 2) * 4096 + (y 0).val) (hz1 : (z 1).val = (y 1).val) :
    iblk m c 1 t y = V m c main_v12 z := by
  unfold iblk
  exact rows_of_window1 t (V m c main_v12) y z hz0 hz1

/-- Point `t`'s block of S is rows `4096 t ..` of the second sparse product as the region finds it. -/
theorem read_s (c : Dev nD) (t : Fin cfg0.N) (y : S4096x64.Idx) (z : S65536x64.Idx)
    (hz0 : (z 0).val = win0_5.index t (0 : Fin 2) * 4096 + (y 0).val) (hz1 : (z 1).val = (y 1).val) :
    iblk m c 2 t y = V m c main_v25 z := by
  unfold iblk
  exact rows_of_window2 t (V m c main_v25) y z hz0 hz1

/-- Every point's weight block is the whole weight matrix. -/
theorem read_w (c : Dev nD) (t : Fin cfg0.N) (y : S192x128.Idx) : iblk m c 3 t y = V m c main_arg4 y := by
  unfold iblk
  exact all_of_window3 t (V m c main_arg4) y

/-- Every point's bias block, read at (0, q), is the bias argument at q. -/
theorem read_b (c : Dev nD) (t : Fin cfg0.N) (y : S1x128.Idx) (z : S128.Idx) (hz : (z 0).val = (y 1).val) :
    iblk m c 4 t y = m ((c : Thread nD τ).loc main_arg5) z := by
  have hy : iblk m c 4 t y = (V m c main_v26 : S1x128.Idx → EReal) y := by
    unfold iblk
    exact all_of_window4 t (V m c main_v26) y
  exact hy.trans ((congrFun (HostStage.bias_row m c) y).trans (HostStage.bias_row_apply _ y z hz))

/-! ## What a point writes back, the cover, the final array -/

/-- The layer's formula over the arrays as the region finds them. -/
abbrev result (c : Dev nD) : S65536x128.Idx → EReal :=
  Cheb.layer (V m c main_arg0) (V m c main_v12) (V m c main_v25) (V m c main_arg4) (m ((c : Thread nD τ).loc main_arg5))

/-- WHAT POINT `t` WRITES BACK is block `t` of the layer's formula. -/
theorem written_back (c : Dev nD) (t : Fin cfg0.N) :
    (dats m 0 c).flushed 5 t = ((cfg0.win 5).blk t).view.read (Elt Ideal) (result m c) := by
  rw [Value.flushed5]
  unfold out0_5
  rw [View.canon_unit_zero zero_offsets]
  simp only [View.ld_unit_zero (S := S4096x64) zero_offsets, View.ld_unit_zero (S := S192x128) zero_offsets,
    View.ld_unit_zero (S := S1x128) zero_offsets]
  obtain ⟨-, -, -, -, -, -, -, -, -, -, e50, e51⟩ := block_index t
  funext j
  show k0_pay1 (iblk m c 0 t) (iblk m c 1 t) (iblk m c 2 t) (iblk m c 3 t) (iblk m c 4 t) j
    = result m c (((cfg0.win 5).blk t).view.emb j)
  exact point_value (iblk m c 0 t) (iblk m c 1 t) (iblk m c 2 t) (iblk m c 3 t) (iblk m c 4 t)
    (V m c main_arg0) (V m c main_v12) (V m c main_v25) (V m c main_arg4) (m ((c : Thread nD τ).loc main_arg5))
    (win0_5.index t (0 : Fin 2) * 4096)
    (read_x m c t) (read_t1 m c t) (read_s m c t) (read_w m c t) (read_b m c t) j (((cfg0.win 5).blk t).view.emb j)
    (by show win0_5.index t (0 : Fin 2) * 4096 + 1 * (j 0).val = win0_5.index t (0 : Fin 2) * 4096 + (j 0).val; omega)
    (by show win0_5.index t (1 : Fin 2) * 128 + 1 * (j 1).val = (j 1).val; omega)

/-- An index of the output array is in point `t`'s block iff each coordinate is in the block's range on its axis. -/
theorem mem_block (t : Fin cfg0.N) (i : S65536x128.Idx) :
    i ∈ ((cfg0.win 5).blk t).view.set ↔ ∀ a : Fin 2, win0_5.index t a * S4096x128.size a ≤ (i a).val
      ∧ (i a).val < win0_5.index t a * S4096x128.size a + S4096x128.size a := by
  show i ∈ ((View.whole main_v27).slice (win0_5.rect t)).set ↔ _
  rw [View.set_slice_whole, Rect.mem_set_unit]
  exact Iff.rfl

/-- Row `r` of the output is in the block of point `r / 4096`: the 16 blocks cover the array. -/
theorem covered (i : S65536x128.Idx) :
    ∃ t : Fin cfg0.N, (cfg0.win 5).flush t = true ∧ i ∈ ((cfg0.win 5).blk t).view.set := by
  have hi0 : (i 0).val < 65536 := (i 0).isLt
  have hi1 : (i 1).val < 128 := (i 1).isLt
  obtain ⟨t, ht⟩ : ∃ t : Fin cfg0.N, t.val = (i 0).val / 4096 :=
    ⟨⟨(i 0).val / 4096, by rw [show cfg0.N = 16 from N_0]; omega⟩, rfl⟩
  obtain ⟨-, -, -, -, -, -, -, -, -, -, e50, e51⟩ := block_index t
  refine ⟨t, flush0_5 t, ?_⟩
  rw [mem_block]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 128 ≤ (i 1).val ∧ (i 1).val < win0_5.index t (1 : Fin 2) * 128 + 128
    omega

/-- THE OUTPUT ARRAY after the run is the layer's formula over the arrays as the region finds them. -/
theorem final (c : Dev nD) : (dats m 0 c).arrAt 5 cfg0.N = result m c :=
  (dats m 0 c).arrAt_eq_of_cover 5 (result m c) (fun t _ => written_back m c t) covered

/-- The layer's formula at equal arrays is equal (stated so that the arrays are matched as they stand, never opened). -/
theorem layer_congr {X X' T1 T1' S S' : S65536x64.Idx → EReal} {W W' : S192x128.Idx → EReal} (b : S128.Idx → EReal)
    (hX : X = X') (hT : T1 = T1') (hS : S = S') (hW : W = W') : Cheb.layer X T1 S W b = Cheb.layer X' T1' S' W' b := by
  subst hX hT hS hW; rfl

/-- The same over the ARGUMENTS: X and W are found as launched, and the two sparse products the region finds are the
    reference's own first and second sparse products of the arguments. -/
theorem result_of_arguments (c : Dev nD) :
    result m c = Cheb.layer (m ((c : Thread nD τ).loc main_arg0))
      (Cert.ReferenceIdeal.Read.val_main_v12 (F := Ideal) (m ((c : Thread nD τ).loc main_arg0)) (m ((c : Thread nD τ).loc main_arg1))
        (m ((c : Thread nD τ).loc main_arg2)) (m ((c : Thread nD τ).loc main_arg3)))
      (Cert.ReferenceIdeal.Read.val_main_v25 (F := Ideal) (m ((c : Thread nD τ).loc main_arg0)) (m ((c : Thread nD τ).loc main_arg1))
        (m ((c : Thread nD τ).loc main_arg2)) (m ((c : Thread nD τ).loc main_arg3)))
      (m ((c : Thread nD τ).loc main_arg4)) (m ((c : Thread nD τ).loc main_arg5)) :=
  layer_congr (m ((c : Thread nD τ).loc main_arg5)) (V_main_arg0 m c) (HostStage.first_product m c) (HostStage.second_product m c)
    (V_main_arg4 m c)

/-! ## The run, read -/

/-- The kernel's run re-posted: the result array at the layer's formula of the arguments, the arguments unchanged. -/
theorem run : θ_run defs (onTc (τ := τ) (main (F := Ideal))) ⟨m, fun _ => 0, ρ⟩ fun r => ∀ c : Dev nD,
      r.2.mem ((c : Thread nD τ).loc main_v27) = Cheb.layer (m ((c : Thread nD τ).loc main_arg0))
        (Cert.ReferenceIdeal.Read.val_main_v12 (F := Ideal) (m ((c : Thread nD τ).loc main_arg0)) (m ((c : Thread nD τ).loc main_arg1))
          (m ((c : Thread nD τ).loc main_arg2)) (m ((c : Thread nD τ).loc main_arg3)))
        (Cert.ReferenceIdeal.Read.val_main_v25 (F := Ideal) (m ((c : Thread nD τ).loc main_arg0)) (m ((c : Thread nD τ).loc main_arg1))
          (m ((c : Thread nD τ).loc main_arg2)) (m ((c : Thread nD τ).loc main_arg3)))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (result_of_arguments m c)), (h c).2⟩)
    (Value.run_blocks m ρ)

end Cert.KernelIdeal.ArrayValue

end
-- ==== Proof.RefValue.lean ====
/-
  The reference's side of the bridge: its result array is `Cheb.layer` of its own two sparse products.

  The reference multiplies S = L (L X) by the literal 2.0, subtracts X, lays X, L X and that difference side by side
  along the column axis as one [65536, 192] matrix, contracts its 192 columns against W and adds the bias broadcast over
  the rows. Read at an output index (p, q): the contraction is a sum over 192 column positions; a position in the
  first band of 64 reads X[p, k], one in the second reads (L X)[p, k], one in the third reads 2 S[p, k] - X[p, k]
  (`joined_lo`, `joined_mid`, `joined_hi`: which piece of the joined matrix a column falls in); cutting the sum into
  its three bands (`Cheb.sum_three_bands`) gives the layer's formula. The two sparse products are carried whole, as the
  arrays the reference's own stages define, and never opened.
-/
import proofs.«165190_j63230508531930_2_alg».proof.Proof.Gen.ReferenceIdeal.Read
import proofs.«165190_j63230508531930_2_alg».proof.Proof.ChebSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Cheb

/-- Column `c` of row `p` of the contraction's left operand index, as the reference's read lemma spells it. -/
abbrev rowcol (i : S65536x128.Idx) (c : Fin 192) : S65536x192.Idx := lidx_main_v30 i c

/-- Row `p` of an output index as a row of the node arrays. -/
abbrev rowOf (i : S65536x128.Idx) : Fin 65536 := ⟨(i 0).val, (i 0).isLt⟩
/-- Column `q` of an output index. -/
abbrev colOf (i : S65536x128.Idx) : Fin 128 := ⟨(i 1).val, (i 1).isLt⟩

/-- A column in the first band of the joined matrix reads the first piece. -/
theorem joined_lo (A B C : FVec Ideal S65536x64 .f32) (i : S65536x128.Idx) (k : Fin 64) :
    concatenate S65536x192 1 [⟨S65536x64, A⟩, ⟨S65536x64, B⟩, ⟨S65536x64, C⟩]
      concatenates_S65536x64_S65536x64_S65536x64_S65536x192_d1 (rowcol i (lo k)) = A (ix2 (rowOf i) k) :=
  concatenate_apply_piece (1 : Fin S65536x192.rank) [⟨S65536x64, A⟩, ⟨S65536x64, B⟩, ⟨S65536x64, C⟩]
    concatenates_S65536x64_S65536x64_S65536x64_S65536x192_d1 (rowcol i (lo k)) 0 (by show (0 : Nat) < 3; decide) S65536x64 A rfl rfl 0 rfl
    (ix2 (rowOf i) k)
    (fun b hb => match b, hb with
      | ⟨0, _⟩, _ => rfl
      | ⟨1, _⟩, hb => absurd rfl hb)
    (by show 0 + k.val = k.val; omega)

/-- A column in the second band reads the second piece, 64 columns back. -/
theorem joined_mid (A B C : FVec Ideal S65536x64 .f32) (i : S65536x128.Idx) (k : Fin 64) :
    concatenate S65536x192 1 [⟨S65536x64, A⟩, ⟨S65536x64, B⟩, ⟨S65536x64, C⟩]
      concatenates_S65536x64_S65536x64_S65536x64_S65536x192_d1 (rowcol i (mid k)) = B (ix2 (rowOf i) k) :=
  concatenate_apply_piece (1 : Fin S65536x192.rank) [⟨S65536x64, A⟩, ⟨S65536x64, B⟩, ⟨S65536x64, C⟩]
    concatenates_S65536x64_S65536x64_S65536x64_S65536x192_d1 (rowcol i (mid k)) 1 (by show (1 : Nat) < 3; decide) S65536x64 B rfl rfl 64 rfl
    (ix2 (rowOf i) k)
    (fun b hb => match b, hb with
      | ⟨0, _⟩, _ => rfl
      | ⟨1, _⟩, hb => absurd rfl hb)
    rfl

/-- A column in the third band reads the third piece, 128 columns back. -/
theorem joined_hi (A B C : FVec Ideal S65536x64 .f32) (i : S65536x128.Idx) (k : Fin 64) :
    concatenate S65536x192 1 [⟨S65536x64, A⟩, ⟨S65536x64, B⟩, ⟨S65536x64, C⟩]
      concatenates_S65536x64_S65536x64_S65536x64_S65536x192_d1 (rowcol i (hi k)) = C (ix2 (rowOf i) k) :=
  concatenate_apply_piece (1 : Fin S65536x192.rank) [⟨S65536x64, A⟩, ⟨S65536x64, B⟩, ⟨S65536x64, C⟩]
    concatenates_S65536x64_S65536x64_S65536x64_S65536x192_d1 (rowcol i (hi k)) 2 (by show (2 : Nat) < 3; decide) S65536x64 C rfl rfl 128 rfl
    (ix2 (rowOf i) k)
    (fun b hb => match b, hb with
      | ⟨0, _⟩, _ => rfl
      | ⟨1, _⟩, hb => absurd rfl hb)
    rfl

/-- The third piece at an index: twice the second sparse product less X. -/
theorem third_apply (x0 : FVec Ideal S65536x64 .f32) (x1 x2 : IVec S1048576 32) (x3 : FVec Ideal S1048576 .f32) (j : S65536x64.Idx) :
    val_main_v28 (F := Ideal) x0 x1 x2 x3 j = two * val_main_v25 (F := Ideal) x0 x1 x2 x3 j - x0 j := by
  rw [val_main_v28_apply, val_main_v27_apply, val_main_v26_apply, val_main_cst_4_apply]
  rfl

/-- The bias broadcast over the rows, at an output index, is the bias of the column. -/
theorem bias_apply (x5 : FVec Ideal S128 .f32) (i : S65536x128.Idx) :
    val_main_v32 (F := Ideal) x5 i = x5 (ix1 (colOf i)) := by
  rw [val_main_v32_apply, val_main_v31_apply]
  exact congrArg x5 (funext fun a => match a with | ⟨0, _⟩ => rfl)

/-- THE REFERENCE'S RESULT is the layer's formula over X, its two sparse products, W and b. -/
theorem result_eq (x0 : FVec Ideal S65536x64 .f32) (x1 x2 : IVec S1048576 32) (x3 : FVec Ideal S1048576 .f32)
    (x4 : FVec Ideal S192x128 .f32) (x5 : FVec Ideal S128 .f32) :
    val_main_v33 (F := Ideal) x0 x1 x2 x3 x4 x5
      = Cheb.layer x0 (val_main_v12 (F := Ideal) x0 x1 x2 x3) (val_main_v25 (F := Ideal) x0 x1 x2 x3) x4 x5 := by
  funext i
  rw [val_main_v33_apply, val_main_v30_apply, bias_apply, sum_three_bands]
  unfold val_main_v29
  have e0 : ∀ c : Fin 192, ridx_main_v30 i c = ix2 c (colOf i) := fun c =>
    funext fun a => match a with | ⟨0, _⟩ => rfl | ⟨1, _⟩ => rfl
  simp only [e0]
  show (∑ k : Fin 64, concatenate S65536x192 1 _ _ (rowcol i (lo k)) * x4 (ix2 (lo k) (colOf i))
      + ∑ k : Fin 64, concatenate S65536x192 1 _ _ (rowcol i (mid k)) * x4 (ix2 (mid k) (colOf i)))
      + ∑ k : Fin 64, concatenate S65536x192 1 _ _ (rowcol i (hi k)) * x4 (ix2 (hi k) (colOf i))
      + x5 (ix1 (colOf i)) = _
  simp only [joined_lo, joined_mid, joined_hi, third_apply]
  rfl

end Cert.ReferenceIdeal.RefValue

end
-- ==== Proof.lean ====
/-
  The fused Chebyshev layer against its reference, on the extended reals.

  Both programs compute, on the host and with the same operations, the sparse products T1 = L X and S = L T1 of the
  node features X [65536, 64] (gather the rows the edges' column indices name, scale by the edge values, add into the
  rows the edges' row indices name). They differ only in the dense stage. The reference forms 2 S - X, lays X, T1 and
  2 S - X side by side as a [65536, 192] matrix H and returns H W + b. The kernel never builds H: on a grid of 16 blocks
  of 4096 rows it multiplies X, T1 and 2 S - X by the three bands of 64 rows of W, adds the three products and the bias.
  Entry (p, q) of either is

      (sum_k X[p,k] W[k,q] + sum_k T1[p,k] W[64+k,q]) + sum_k (2 S[p,k] - X[p,k]) W[128+k,q] + b[q],

  the reference's one sum over 192 columns being the sum of its three runs of 64 — a re-association of a finite sum,
  valid on the extended reals with the infinities included, so the precondition is never opened. The narrowing of the
  matrix operands to a shorter float format, which the kernel does and the reference does not, is the identity on exact
  values; the idealized kernel is the kernel's own text, so there is nothing to preserve.

  The modules: ChebSpec (the formula and the three-band law), RefValue (the reference's result is the formula),
  BodyValue (what one grid point stores is the formula on its blocks), HostStage (the arrays the host hands the kernel
  are the reference's sparse products), ArrayValue (the 16 blocks are the formula on the whole arrays, and cover them).
-/
import proofs.«165190_j63230508531930_2_alg».proof.Defs
import proofs.«165190_j63230508531930_2_alg».proof.Proof.Gen.Kernel
import proofs.«165190_j63230508531930_2_alg».proof.Proof.Gen.Kernel.Skeleton
import proofs.«165190_j63230508531930_2_alg».proof.Proof.Gen.Kernel.Launch
import proofs.«165190_j63230508531930_2_alg».proof.Proof.Gen.Kernel.Points
import proofs.«165190_j63230508531930_2_alg».proof.Proof.Gen.Kernel.Frame
import proofs.«165190_j63230508531930_2_alg».proof.Proof.Gen.KernelIdeal
import proofs.«165190_j63230508531930_2_alg».proof.Proof.Gen.KernelIdeal.Skeleton
import proofs.«165190_j63230508531930_2_alg».proof.Proof.Gen.KernelIdeal.Launch
import proofs.«165190_j63230508531930_2_alg».proof.Proof.Gen.KernelIdeal.Points
import proofs.«165190_j63230508531930_2_alg».proof.Proof.Gen.KernelIdeal.Frame
import proofs.«165190_j63230508531930_2_alg».proof.Proof.Gen.ReferenceIdeal
import proofs.«165190_j63230508531930_2_alg».proof.Proof.Gen.Pre_finite_inputs
import proofs.«165190_j63230508531930_2_alg».proof.Proof.Gen.KernelIdeal.Value
import proofs.«165190_j63230508531930_2_alg».proof.Proof.Gen.ReferenceIdeal.Run
import proofs.«165190_j63230508531930_2_alg».proof.Proof.Gen.ReferenceIdeal.Read
import proofs.«165190_j63230508531930_2_alg».proof.Proof.ArrayValue
import proofs.«165190_j63230508531930_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read on exact values. -/
theorem frame_kernel_ideal : Cert.frame_KernelIdeal := fun m ρ _ => Cert.KernelIdeal.Gen.frame m ρ

/-- So does the reference: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on exact values rewrote none of its operations. -/
theorem preserves : Cert.preserves_Kernel_KernelIdeal := trivial

/-- On exact values, from memories that agree on the arguments, the kernel's result array and the reference's are
    one array: the layer's formula of X, its two sparse products, W and b. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v33_eq, Cert.ReferenceIdeal.RefValue.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
